-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 56
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x128, .bf16⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .bf16⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S128x128, .bf16⟩
  | .hbm, ⟨36, _⟩ => ⟨S1x128, .f32⟩
  | .hbm, ⟨37, _⟩ => ⟨S100000x128, .f32⟩
  | .hbm, ⟨38, _⟩ => ⟨S100000x128, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .bf16⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S128x64, .bf16⟩
  | .hbm, ⟨54, _⟩ => ⟨S1x64, .f32⟩
  | .hbm, ⟨55, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128x64, .bf16⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S100000x128, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S100000x128, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel program's run with its RESULT named.

  @main is four segments: a stretch of host operations, the first layer's pallas_call, a second stretch of
  host operations, the second layer's pallas_call.  The buffer contents at each segment boundary are a fold
  from the launch memory; at the last boundary every unscoped buffer of the TensorCore holds that fold's
  value, and the result buffer is the output array of the second pallas_call, whose contents after its
  pipeline are the write-backs of its twenty grid points folded over the array as the region found it.
  The statement below is the run of the four segments with that reading of the result buffer beside the
  unchanged arguments.
-/
import proofs.«107897_j18322330484806_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the second
    pallas_call's output array after its pipeline (its grid points' write-backs folded over the contents the
    region was entered with), and every argument buffer holds what it held at launch. -/
theorem run_named : θ_run defs (onTc (τ := τ) (main (F := F))) ⟨m, fun _ => 0, ρ⟩ (fun r => ∀ c : Dev nD,
      r.2.mem ((c.tc : Thread nD τ).loc main_v38) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v38 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.KRun

end
-- ==== Proof.KBody.lean ====
/-
  The two kernel bodies read at an index, on extended reals.

  Each body loads a block of 5000 rows of the aggregated neighbour features and of the nodes' own features, a
  column of 5000 per-row scales, the whole weight matrix and the bias row; adds the two feature blocks, multiplies
  each row by its scale (the column broadcast along the row), multiplies by the weights on the matrix unit into a
  zero accumulator, adds the bias (the row broadcast down the block) and, in the first layer, takes the maximum
  with zero.  On extended reals the change of float format before the matrix unit is the identity and the matrix
  product into a zero accumulator is the plain sum over the contracted axis, so entry `(p, q)` of the stored
  block is `∑ₖ ((x0 p k + x1 p k) · x2 p 0) · x3 k q + x4 0 q`, clamped at zero in the first layer.
-/
import proofs.«107897_j18322330484806_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.KBody

open Cert.KernelIdeal Cert.KernelIdeal.Gen Idealize.ShloMosaic Idealize.ShloMosaic.ValueIdx

/-- A column of per-row values broadcast along the rows reads, at `(p, k)`, the column's entry for row `p`. -/
theorem bcast_col (x2 : Vec Ideal S5000x1 .f32) (p : Fin 5000) (k : Fin 128) :
    broadcastTo S5000x128 x2 broadcasts_S5000x1_S5000x128 (ix2 p k) = x2 (ix2 p 0) :=
  broadcastTo_apply x2 broadcasts_S5000x1_S5000x128 (ix2 p k) (ix2 p 0) (fun a => match a with
    | ⟨0, _⟩ => by show p.val = if (5000 : Nat) = 1 then 0 else p.val; rw [if_neg (by decide)]
    | ⟨1, _⟩ => by show (0 : Nat) = if (1 : Nat) = 1 then 0 else k.val; rw [if_pos rfl])

/-! ## Layer 1: 128 input features, 128 output features -/

/-- The bias row broadcast down the block reads, at `(p, q)`, the row's entry for column `q`. -/
theorem bcast_row0 (x4 : Vec Ideal S1x128 .f32) (p : Fin 5000) (q : Fin 128) :
    broadcastTo S5000x128 x4 broadcasts_S1x128_S5000x128 (ix2 p q) = x4 (ix2 0 q) :=
  broadcastTo_apply x4 broadcasts_S1x128_S5000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The left operand of the product is read on the output's row … -/
theorem lhs0_row (i : S5000x128.Idx) (κ : dot_S5000x128_S128x128_S5000x128_1_0_0_1_n_n.contr.Idx) : (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and the right operand on the output's column. -/
theorem rhs0_col (i : S5000x128.Idx) (κ : dot_S5000x128_S128x128_S5000x128_1_0_0_1_n_n.contr.Idx) : (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry `(p, q)` of what the body stores, from the loaded blocks. -/
theorem pay0_apply (x0 x1 : Vec Ideal S5000x128 .f32) (x2 : Vec Ideal S5000x1 .f32) (x3 : Vec Ideal S128x128 .bf16)
    (x4 : Vec Ideal S1x128 .f32) (p : Fin 5000) (q : Fin 128) :
    k0_pay1 x0 x1 x2 x3 x4 (ix2 p q)
      = max ((∑ k : Fin 128, ((x0 (ix2 p k) + x1 (ix2 p k)) * x2 (ix2 p 0)) * x3 (ix2 k q)) + x4 (ix2 0 q)) 0 := by
  unfold k0_pay1
  simp only [shapeCast_self]
  show max ((FloatOps.matmul (F := Ideal) dot_S5000x128_S128x128_S5000x128_1_0_0_1_n_n none
      (truncf .bf16 (mulf (addf x0 x1) (broadcastTo S5000x128 x2 broadcasts_S5000x1_S5000x128)) bitsLt_bf16_f32) x3
      (constant (F := Ideal) S5000x128 .f32 0x00000000#32) (ix2 p q) : EReal) + (broadcastTo S5000x128 x4 broadcasts_S1x128_S5000x128 (ix2 p q) : EReal)) (Ideal.ofBits .f32 0x00000000#32 : EReal) = _
  rw [Ideal.ofBits_zero_f32, bcast_row0 x4 p q, Ideal.matmul_constant_zero_apply,
    ← Equiv.sum_comp (contrEquiv1 dot_S5000x128_S128x128_S5000x128_1_0_0_1_n_n 128 rfl rfl).symm]
  refine congrArg (fun s => max (s + x4 (ix2 0 q)) 0) (Finset.sum_congr rfl fun k _ => ?_)
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs0_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs0_col _ _)
  rw [el, er]
  show ((x0 (ix2 p k) + x1 (ix2 p k) : EReal)) * (broadcastTo S5000x128 x2 broadcasts_S5000x1_S5000x128 (ix2 p k) : EReal) * (x3 (ix2 k q) : EReal) = _
  rw [bcast_col x2 p k]

/-! ## Layer 2: 128 input features, 64 output features -/

/-- The bias row broadcast down the block reads, at `(p, q)`, the row's entry for column `q`. -/
theorem bcast_row1 (x4 : Vec Ideal S1x64 .f32) (p : Fin 5000) (q : Fin 64) :
    broadcastTo S5000x64 x4 broadcasts_S1x64_S5000x64 (ix2 p q) = x4 (ix2 0 q) :=
  broadcastTo_apply x4 broadcasts_S1x64_S5000x64 (ix2 p q) (ix2 0 q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- The left operand of the product is read on the output's row … -/
theorem lhs1_row (i : S5000x64.Idx) (κ : dot_S5000x128_S128x64_S5000x64_1_0_0_1_n_n.contr.Idx) : (dot_S5000x128_S128x64_S5000x64_1_0_0_1_n_n.lhsIdx i κ 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

/-- … and the right operand on the output's column. -/
theorem rhs1_col (i : S5000x64.Idx) (κ : dot_S5000x128_S128x64_S5000x64_1_0_0_1_n_n.contr.Idx) : (dot_S5000x128_S128x64_S5000x64_1_0_0_1_n_n.rhsIdx i κ 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- Entry `(p, q)` of what the body stores, from the loaded blocks. -/
theorem pay1_apply (x0 x1 : Vec Ideal S5000x128 .f32) (x2 : Vec Ideal S5000x1 .f32) (x3 : Vec Ideal S128x64 .bf16)
    (x4 : Vec Ideal S1x64 .f32) (p : Fin 5000) (q : Fin 64) :
    k1_pay1 x0 x1 x2 x3 x4 (ix2 p q)
      = ((∑ k : Fin 128, ((x0 (ix2 p k) + x1 (ix2 p k)) * x2 (ix2 p 0)) * x3 (ix2 k q)) + x4 (ix2 0 q)) := by
  unfold k1_pay1
  simp only [shapeCast_self]
  show ((FloatOps.matmul (F := Ideal) dot_S5000x128_S128x64_S5000x64_1_0_0_1_n_n none
      (truncf .bf16 (mulf (addf x0 x1) (broadcastTo S5000x128 x2 broadcasts_S5000x1_S5000x128)) bitsLt_bf16_f32) x3
      (constant (F := Ideal) S5000x64 .f32 0x00000000#32) (ix2 p q) : EReal) + (broadcastTo S5000x64 x4 broadcasts_S1x64_S5000x64 (ix2 p q) : EReal)) = _
  rw [bcast_row1 x4 p q, Ideal.matmul_constant_zero_apply,
    ← Equiv.sum_comp (contrEquiv1 dot_S5000x128_S128x64_S5000x64_1_0_0_1_n_n 128 rfl rfl).symm]
  refine congrArg (fun s => s + x4 (ix2 0 q)) (Finset.sum_congr rfl fun k _ => ?_)
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact lhs1_row _ _
      | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (dot_S5000x128_S128x64_S5000x64_1_0_0_1_n_n.rhsIdx_val_of_single rfl _ _).trans hk
      | ⟨1, _⟩ => exact rhs1_col _ _)
  rw [el, er]
  show ((x0 (ix2 p k) + x1 (ix2 p k) : EReal)) * (broadcastTo S5000x128 x2 broadcasts_S5000x1_S5000x128 (ix2 p k) : EReal) * (x3 (ix2 k q) : EReal) = _
  rw [bcast_col x2 p k]

end Cert.KernelIdeal.KBody

end
-- ==== Proof.Spec.lean ====
/-
  The mathematics of the two-layer mean-style graph convolution, as functions on extended reals.

  One layer takes, for every node `r`, the row `nb r + h r` (the sum of the features gathered along the
  node's incoming edges, plus the node's own features), scales it by a per-node factor, multiplies the scaled row
  by a weight matrix and adds a bias row.  The first layer also clamps at zero from below.

  The two programs differ in how they scale: one DIVIDES the row by `d = degree + 1`, the other MULTIPLIES it by
  the reciprocal `1 / d` computed once.  On the extended reals the two agree for every numerator exactly when the
  divisor is not zero (`div_eq_mul_one_div`): off zero, division IS multiplication by the inverse, and `1 / d` is
  that inverse.  At `d = 0` they differ (`0 / 0` against `0 · ⊤`), so the proof needs the divisor to be nonzero;
  it is, because a degree is a sum of ones over a finite set of edges, hence nonnegative, and one more than a
  nonnegative extended real is positive (`zero_add_sum_one_add_one_ne_zero`).
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

namespace Cert.SageSpec

open Idealize.ShloMosaic Idealize.ShloMosaic.ValueIdx

/-- Off zero, dividing by `d` is multiplying by `1 / d`, for every extended-real numerator (the infinities
    included: both sides are the product with the inverse of `d`). -/
theorem div_eq_mul_one_div (x d : EReal) (hd : d ≠ 0) : Ideal.div x d = x * Ideal.div 1 d := by
  unfold Ideal.div
  rw [if_neg hd, if_neg hd, one_mul]

/-- One more than (zero plus) a sum of ones over a finite set is not zero: the sum is nonnegative. -/
theorem zero_add_sum_one_add_one_ne_zero {ι : Type} (S : Finset ι) :
    ((0 : EReal) + ∑ _j ∈ S, (1 : EReal)) + 1 ≠ 0 := by
  have h : (0 : EReal) ≤ ∑ _j ∈ S, (1 : EReal) := Finset.sum_nonneg fun _ _ => zero_le_one
  have hpos : (0 : EReal) < ((0 : EReal) + ∑ _j ∈ S, (1 : EReal)) + 1 := by
    rw [zero_add]
    exact lt_of_lt_of_le zero_lt_one (le_add_of_nonneg_left h)
  exact ne_of_gt hpos

/-- A scatter-add of ones into zeros, plus one, is not zero at any index: the scattered sum is a sum of ones over
    the updates that land on the index. -/
theorem scatterAdd_ones_add_one_ne_zero {s si su : Shape} (d : ScatterDims s si su) {w : Nat}
    (x : s.Idx → EReal) (idx : IVec si w) (upd : su.Idx → EReal) (hx : ∀ i, x i = 0) (hu : ∀ j, upd j = 1)
    (r : s.Idx) : Ideal.hostScatterAdd d x idx upd r + 1 ≠ 0 := by
  unfold Ideal.hostScatterAdd
  rw [hx r, Finset.sum_congr rfl (fun j _ => hu j)]
  exact zero_add_sum_one_add_one_ne_zero _

/-- The same for the host's accumulating scatter as the programs print it: scattering ones into zeros and adding
    the float one gives a nonzero extended real at every index. -/
theorem hostScatterAdd_ones_add_one_ne_zero {s si su : Shape} (d : ScatterDims s si su) {w : Nat}
    (x : FVec Ideal s .f32) (idx : IVec si w) (upd : FVec Ideal su .f32) (hx : ∀ i, (x i : EReal) = 0)
    (hu : ∀ j, (upd j : EReal) = 1) (r : s.Idx) :
    FloatOps.addf (Host.scatterAdd (F := Ideal) d x idx upd r) (FloatOps.ofBits .f32 0x3F800000#32) ≠ 0 := by
  show Ideal.hostScatterAdd d x idx upd r + Ideal.ofBits .f32 0x3F800000#32 ≠ 0
  rw [Ideal.ofBits_one_f32]
  exact scatterAdd_ones_add_one_ne_zero d x idx upd hx hu r

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The first layer over 100000 nodes, 128 input and 128 output features: entry `(r, q)` is
    `max (∑ₖ ((nb r k + h r k) · inv r) · W k q + b q) 0`.  The scale `inv` is a column, the bias `b` a row. -/
def layer1 (nb h : (⟨2, ![100000, 128]⟩ : Shape).Idx → EReal) (inv : (⟨2, ![100000, 1]⟩ : Shape).Idx → EReal)
    (W : (⟨2, ![128, 128]⟩ : Shape).Idx → EReal) (b : (⟨2, ![1, 128]⟩ : Shape).Idx → EReal) :
    (⟨2, ![100000, 128]⟩ : Shape).Idx → EReal :=
  fun i => max ((∑ k : Fin 128, ((nb (ix2 (i 0) k) + h (ix2 (i 0) k)) * inv (ix2 (i 0) 0)) * W (ix2 k (i 1)))
    + b (ix2 0 (i 1))) 0

/-- The second layer, 128 input and 64 output features, with no clamp: entry `(r, q)` is
    `∑ₖ ((nb r k + h r k) · inv r) · W k q + b q`. -/
def layer2 (nb h : (⟨2, ![100000, 128]⟩ : Shape).Idx → EReal) (inv : (⟨2, ![100000, 1]⟩ : Shape).Idx → EReal)
    (W : (⟨2, ![128, 64]⟩ : Shape).Idx → EReal) (b : (⟨2, ![1, 64]⟩ : Shape).Idx → EReal) :
    (⟨2, ![100000, 64]⟩ : Shape).Idx → EReal :=
  fun i => (∑ k : Fin 128, ((nb (ix2 (i 0) k) + h (ix2 (i 0) k)) * inv (ix2 (i 0) 0)) * W (ix2 k (i 1)))
    + b (ix2 0 (i 1))

end Cert.SageSpec

end
-- ==== Proof.KFinal0.lean ====
/-
  The first pallas_call's output array after its pipeline, as ONE function of the arrays the region was entered with.

  The grid has twenty points.  At every point the three row-blocked operands (the aggregated features, the nodes'
  own features, the scale column) are staged at the SAME block of 5000 consecutive rows as the output block the
  point writes back, and the weight matrix and the bias row are staged whole (`idx_facts`).  So what a point writes
  back is its block of the layer function of the whole arrays: row `p` of the block of index `b` is row
  `5000·b + p` of its array, and the weights and bias are read where they are.  Each of the twenty row blocks is
  some point's (`idx_onto`), so every row `i` lies in a written block, the one of index `i / 5000`, and the array
  ends holding the layer function everywhere.
-/
import proofs.«107897_j18322330484806_2_alg».proof.Proof.Gen.KernelIdeal.Frame
import proofs.«107897_j18322330484806_2_alg».proof.Proof.KBody
import proofs.«107897_j18322330484806_2_alg».proof.Proof.Spec
import Idealize.ShloMosaic.Lib.Pipeline.Value

set_option maxRecDepth 16384

noncomputable section

namespace Cert.KernelIdeal.KFinal0

open Cert.KernelIdeal Cert.KernelIdeal.Gen Cert.KernelIdeal.KBody Cert.SageSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs move with the output's row block, the
    weights and the bias stay at block zero, the output's column block is zero. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every one of the twenty row blocks is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- The stored block at any index of the block, from the loaded blocks. -/
theorem pay_at (x0 x1 : Vec Ideal S5000x128 .f32) (x2 : Vec Ideal S5000x1 .f32) (x3 : Vec Ideal S128x128 .bf16)
    (x4 : Vec Ideal S1x128 .f32) (j : S5000x128.Idx) :
    k0_pay1 x0 x1 x2 x3 x4 j
      = max ((∑ k : Fin 128, ((x0 (ix2 (j 0) k) + x1 (ix2 (j 0) k)) * x2 (ix2 (j 0) 0)) * x3 (ix2 k (j 1))) + x4 (ix2 0 (j 1))) 0 :=
  (congrArg (k0_pay1 x0 x1 x2 x3 x4) (eq_ix2 j)).trans (pay0_apply x0 x1 x2 x3 x4 (j 0) (j 1))

/-- If the five loaded blocks are the arrays read at the output block's row (`E 0`) and column (`E 1`), the
    stored entry is the layer function of the arrays at `E`. -/
theorem block_eq (A0 A1 : S100000x128.Idx → EReal) (A2 : S100000x1.Idx → EReal) (A3 : S128x128.Idx → EReal)
    (A4 : S1x128.Idx → EReal) (b0 b1 : S5000x128.Idx → EReal) (b2 : S5000x1.Idx → EReal) (b3 : S128x128.Idx → EReal)
    (b4 : S1x128.Idx → EReal) (j : S5000x128.Idx) (E : S100000x128.Idx)
    (h0 : ∀ k : Fin 128, b0 (ix2 (j 0) k) = A0 (ix2 (E 0) k)) (h1 : ∀ k : Fin 128, b1 (ix2 (j 0) k) = A1 (ix2 (E 0) k))
    (h2 : b2 (ix2 (j 0) 0) = A2 (ix2 (E 0) 0)) (h3 : ∀ k : Fin 128, b3 (ix2 k (j 1)) = A3 (ix2 k (E 1)))
    (h4 : b4 (ix2 0 (j 1)) = A4 (ix2 0 (E 1))) :
    max ((∑ k : Fin 128, ((b0 (ix2 (j 0) k) + b1 (ix2 (j 0) k)) * b2 (ix2 (j 0) 0)) * b3 (ix2 k (j 1))) + b4 (ix2 0 (j 1))) 0
      = layer1 A0 A1 A2 A3 A4 E := by
  unfold layer1
  simp only [h0, h1, h2, h3, h4]

/-- What point `t` writes back is block `t` of the layer function of the arrays as the region finds them. -/
theorem flushed_eq (c : Dev nD) (t : Fin cfg0.N) :
    (dat0 V c).flushed 5 t = ((cfg0.win 5).blk t).view.read (Elt Ideal)
      (layer1 (V c main_v20) (V c main_arg0) (V c main_v8) (V c main_v21) (V c main_v22)) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x1) hz,
    View.ld_unit_zero (S := S128x128) hz, View.ld_unit_zero (S := S1x128) hz]
  obtain ⟨e0, e1, e2, e3, e4, e5, e6, e7, e8, e9, e10, e11⟩ := idx_facts t
  funext j
  show k0_pay1 (iblk0 V c 0 t) (iblk0 V c 1 t) (iblk0 V c 2 t) (iblk0 V c 3 t) (iblk0 V c 4 t) j
      = layer1 (V c main_v20) (V c main_arg0) (V c main_v8) (V c main_v21) (V c main_v22)
          (((cfg0.win 5).blk t).view.emb j)
  refine (pay_at (iblk0 V c 0 t) (iblk0 V c 1 t) (iblk0 V c 2 t) (iblk0 V c 3 t) (iblk0 V c 4 t) j).trans ?_
  have hj0 : (j 0).val < 5000 := (j 0).isLt
  have hj1 : (j 1).val < 128 := (j 1).isLt
  refine block_eq (V c main_v20) (V c main_arg0) (V c main_v8) (V c main_v21) (V c main_v22)
    (iblk0 V c 0 t) (iblk0 V c 1 t) (iblk0 V c 2 t) (iblk0 V c 3 t) (iblk0 V c 4 t) j
    (((cfg0.win 5).blk t).view.emb j) (fun k => ?_) (fun k => ?_) ?_ (fun k => ?_) ?_
  · show V c main_v20 (((cfg0.win 0).blk t).view.emb (ix2 (j 0) k : S5000x128.Idx)) = _
    refine congrArg (V c main_v20 : S100000x128.Idx → EReal) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show V c main_arg0 (((cfg0.win 1).blk t).view.emb (ix2 (j 0) k : S5000x128.Idx)) = _
    refine congrArg (V c main_arg0 : S100000x128.Idx → EReal) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show V c main_v8 (((cfg0.win 2).blk t).view.emb (ix2 (j 0) 0 : S5000x1.Idx)) = _
    refine congrArg (V c main_v8 : S100000x1.Idx → EReal) (funext fun a => Fin.ext ?_)
    match a with
    | ⟨0, _⟩ => show win0_2.index t (0 : Fin 2) * 5000 + 1 * (j 0).val = win0_5.index t (0 : Fin 2) * 5000 + 1 * (j 0).val; omega
    | ⟨1, _⟩ => show win0_2.index t (1 : Fin 2) * 1 + 1 * 0 = 0; omega
  · show V c main_v21 (((cfg0.win 3).blk t).view.emb (ix2 k (j 1) : S128x128.Idx)) = _
    refine congrArg (V c main_v21 : S128x128.Idx → EReal) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  · show V c main_v22 (((cfg0.win 4).blk t).view.emb (ix2 0 (j 1) : S1x128.Idx)) = _
    refine congrArg (V c main_v22 : S1x128.Idx → EReal) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v23).slice (win0_5.rect t)).set ↔ _
  rw [View.set_slice_whole, Rect.mem_set_unit]
  exact Iff.rfl

/-- Every index of the output array is in some point's block: row `i₀` in the block of point `i₀ / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the pipeline is the layer function of the arrays the region was entered with. -/
theorem final (c : Dev nD) : (dat0 V c).arrAt 5 cfg0.N
    = layer1 (V c main_v20) (V c main_arg0) (V c main_v8) (V c main_v21) (V c main_v22) :=
  (dat0 V c).arrAt_eq_of_cover 5 _ (fun t _ => flushed_eq V c t) cover

end Cert.KernelIdeal.KFinal0

end
-- ==== Proof.KFinal1.lean ====
/-
  The second pallas_call's output array after its pipeline, as ONE function of the arrays the region was entered with.

  The grid has twenty points.  At every point the three row-blocked operands (the aggregated features, the nodes'
  own features, the scale column) are staged at the SAME block of 5000 consecutive rows as the output block the
  point writes back, and the weight matrix and the bias row are staged whole (`idx_facts`).  So what a point writes
  back is its block of the layer function of the whole arrays: row `p` of the block of index `b` is row
  `5000·b + p` of its array, and the weights and bias are read where they are.  Each of the twenty row blocks is
  some point's (`idx_onto`), so every row `i` lies in a written block, the one of index `i / 5000`, and the array
  ends holding the layer function everywhere.
-/
import proofs.«107897_j18322330484806_2_alg».proof.Proof.Gen.KernelIdeal.Frame
import proofs.«107897_j18322330484806_2_alg».proof.Proof.KBody
import proofs.«107897_j18322330484806_2_alg».proof.Proof.Spec
import Idealize.ShloMosaic.Lib.Pipeline.Value

set_option maxRecDepth 16384

noncomputable section

namespace Cert.KernelIdeal.KFinal1

open Cert.KernelIdeal Cert.KernelIdeal.Gen Cert.KernelIdeal.KBody Cert.SageSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs move with the output's row block, the
    weights and the bias stay at block zero, the output's column block is zero. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every one of the twenty row blocks is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- The stored block at any index of the block, from the loaded blocks. -/
theorem pay_at (x0 x1 : Vec Ideal S5000x128 .f32) (x2 : Vec Ideal S5000x1 .f32) (x3 : Vec Ideal S128x64 .bf16)
    (x4 : Vec Ideal S1x64 .f32) (j : S5000x64.Idx) :
    k1_pay1 x0 x1 x2 x3 x4 j
      = ((∑ k : Fin 128, ((x0 (ix2 (j 0) k) + x1 (ix2 (j 0) k)) * x2 (ix2 (j 0) 0)) * x3 (ix2 k (j 1))) + x4 (ix2 0 (j 1))) :=
  (congrArg (k1_pay1 x0 x1 x2 x3 x4) (eq_ix2 j)).trans (pay1_apply x0 x1 x2 x3 x4 (j 0) (j 1))

/-- If the five loaded blocks are the arrays read at the output block's row (`E 0`) and column (`E 1`), the
    stored entry is the layer function of the arrays at `E`. -/
theorem block_eq (A0 A1 : S100000x128.Idx → EReal) (A2 : S100000x1.Idx → EReal) (A3 : S128x64.Idx → EReal)
    (A4 : S1x64.Idx → EReal) (b0 b1 : S5000x128.Idx → EReal) (b2 : S5000x1.Idx → EReal) (b3 : S128x64.Idx → EReal)
    (b4 : S1x64.Idx → EReal) (j : S5000x64.Idx) (E : S100000x64.Idx)
    (h0 : ∀ k : Fin 128, b0 (ix2 (j 0) k) = A0 (ix2 (E 0) k)) (h1 : ∀ k : Fin 128, b1 (ix2 (j 0) k) = A1 (ix2 (E 0) k))
    (h2 : b2 (ix2 (j 0) 0) = A2 (ix2 (E 0) 0)) (h3 : ∀ k : Fin 128, b3 (ix2 k (j 1)) = A3 (ix2 k (E 1)))
    (h4 : b4 (ix2 0 (j 1)) = A4 (ix2 0 (E 1))) :
    ((∑ k : Fin 128, ((b0 (ix2 (j 0) k) + b1 (ix2 (j 0) k)) * b2 (ix2 (j 0) 0)) * b3 (ix2 k (j 1))) + b4 (ix2 0 (j 1)))
      = layer2 A0 A1 A2 A3 A4 E := by
  unfold layer2
  simp only [h0, h1, h2, h3, h4]

/-- What point `t` writes back is block `t` of the layer function of the arrays as the region finds them. -/
theorem flushed_eq (c : Dev nD) (t : Fin cfg1.N) :
    (dat1 V c).flushed 5 t = ((cfg1.win 5).blk t).view.read (Elt Ideal)
      (layer2 (V c main_v35) (V c main_v23) (V c main_v8) (V c main_v36) (V c main_v37)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz,
    View.ld_unit_zero (S := S128x64) hz, View.ld_unit_zero (S := S1x64) hz]
  obtain ⟨e0, e1, e2, e3, e4, e5, e6, e7, e8, e9, e10, e11⟩ := idx_facts t
  funext j
  show k1_pay1 (iblk1 V c 0 t) (iblk1 V c 1 t) (iblk1 V c 2 t) (iblk1 V c 3 t) (iblk1 V c 4 t) j
      = layer2 (V c main_v35) (V c main_v23) (V c main_v8) (V c main_v36) (V c main_v37)
          (((cfg1.win 5).blk t).view.emb j)
  refine (pay_at (iblk1 V c 0 t) (iblk1 V c 1 t) (iblk1 V c 2 t) (iblk1 V c 3 t) (iblk1 V c 4 t) j).trans ?_
  have hj0 : (j 0).val < 5000 := (j 0).isLt
  have hj1 : (j 1).val < 64 := (j 1).isLt
  refine block_eq (V c main_v35) (V c main_v23) (V c main_v8) (V c main_v36) (V c main_v37)
    (iblk1 V c 0 t) (iblk1 V c 1 t) (iblk1 V c 2 t) (iblk1 V c 3 t) (iblk1 V c 4 t) j
    (((cfg1.win 5).blk t).view.emb j) (fun k => ?_) (fun k => ?_) ?_ (fun k => ?_) ?_
  · show V c main_v35 (((cfg1.win 0).blk t).view.emb (ix2 (j 0) k : S5000x128.Idx)) = _
    refine congrArg (V c main_v35 : S100000x128.Idx → EReal) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v23 (((cfg1.win 1).blk t).view.emb (ix2 (j 0) k : S5000x128.Idx)) = _
    refine congrArg (V c main_v23 : S100000x128.Idx → EReal) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show V c main_v8 (((cfg1.win 2).blk t).view.emb (ix2 (j 0) 0 : S5000x1.Idx)) = _
    refine congrArg (V c main_v8 : S100000x1.Idx → EReal) (funext fun a => Fin.ext ?_)
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 1 + 1 * 0 = 0; omega
  · show V c main_v36 (((cfg1.win 3).blk t).view.emb (ix2 k (j 1) : S128x64.Idx)) = _
    refine congrArg (V c main_v36 : S128x64.Idx → EReal) (funext fun a => Fin.ext ?_)
    match a with
    | ⟨0, _⟩ => show win1_3.index t (0 : Fin 2) * 128 + 1 * k.val = k.val; omega
    | ⟨1, _⟩ => show win1_3.index t (1 : Fin 2) * 64 + 1 * (j 1).val = win1_5.index t (1 : Fin 2) * 64 + 1 * (j 1).val; omega
  · show V c main_v37 (((cfg1.win 4).blk t).view.emb (ix2 0 (j 1) : S1x64.Idx)) = _
    refine congrArg (V c main_v37 : S1x64.Idx → EReal) (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v38).slice (win1_5.rect t)).set ↔ _
  rw [View.set_slice_whole, Rect.mem_set_unit]
  exact Iff.rfl

/-- Every index of the output array is in some point's block: row `i₀` in the block of point `i₀ / 5000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the pipeline is the layer function of the arrays the region was entered with. -/
theorem final (c : Dev nD) : (dat1 V c).arrAt 5 cfg1.N
    = layer2 (V c main_v35) (V c main_v23) (V c main_v8) (V c main_v36) (V c main_v37) :=
  (dat1 V c).arrAt_eq_of_cover 5 _ (fun t _ => flushed_eq V c t) cover

end Cert.KernelIdeal.KFinal1

end
-- ==== Proof.KHost.lean ====
/-
  The idealized kernel program's host side: what each pallas_call finds in its operand arrays, and so what the
  program returns, as functions of the argument arrays.

  Before the first pallas_call the host computes the degree column's reciprocal `1 / (deg + 1)` (the scatter-add
  of ones over the edges' targets, plus one, under a division of one), the aggregated neighbour features (the rows
  gathered at the edges' sources, with a negative source index wrapped by the node count, scatter-added over the
  edges' targets), the weights in the matrix unit's format and the bias as a row.  The first pallas_call's output
  is the first layer of these.  Between the calls the host aggregates that output in the same way, and the second
  pallas_call's output, the program's result, is the second layer of the aggregate, the first layer's output,
  the same reciprocal column, and the second weights and bias.
-/
import proofs.«107897_j18322330484806_2_alg».proof.Proof.Gen.KernelIdeal.Frame
import proofs.«107897_j18322330484806_2_alg».proof.Proof.KFinal0
import proofs.«107897_j18322330484806_2_alg».proof.Proof.KFinal1
import Idealize.ShloMosaic.Lib.StableHlo.Run
import Idealize.ShloMosaic.Lib.IdealHost

set_option maxRecDepth 16384

noncomputable section

namespace Cert.KernelIdeal.KHost

open Cert.KernelIdeal Cert.KernelIdeal.Gen Cert.SageSpec
open Idealize.ShloMosaic Idealize.ShloMosaic.TcCoe Idealize.SL.Sem Idealize.ShloMosaic.StableHlo

/-- The aggregated neighbour features of `h`: the rows of `h` gathered at the edges' sources (a negative source
    wrapped by the node count), summed into the edges' targets from zero. -/
def nbK (h : FVec Ideal S100000x128 .f32) (a5 a6 : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 a6)
    (extf (F := Ideal) .f32
      (Host.gather gather_S100000x128_S1600000x1_S1600000x128_1_0_n_n_0_1_1128
        (truncf (F := Ideal) .bf16 h bitsLt_bf16_f32)
        (broadcastInDim S1600000x1 ![0] bcast_S1600000_S1600000x1_0
          (select (cmpi .slt a5 (broadcastInDim S1600000 ![] bcast_S_S1600000 (constantI S_ 32 0#32)))
            (addi a5 (broadcastInDim S1600000 ![] bcast_S_S1600000 (constantI S_ 32 100000#32))) a5)))
      bitsLt_bf16_f32)

/-- The degree plus one: ones summed into the edges' targets from zero, plus one. -/
def degp1K (a6 : IVec S1600000 32) : FVec Ideal S100000 .f32 :=
  addf (F := Ideal)
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 a6)
      (broadcastInDim S1600000 ![] bcast_S_S1600000 (constant (F := Ideal) S_ .f32 0x3F800000#32)))
    (broadcastInDim S100000 ![] bcast_S_S100000 (constant (F := Ideal) S_ .f32 0x3F800000#32))

/-- The reciprocal column `1 / (deg + 1)`. -/
def invK (a6 : IVec S1600000 32) : FVec Ideal S100000x1 .f32 :=
  shapeCast S100000x1
    (Host.divf (F := Ideal) (broadcastInDim S100000 ![] bcast_S_S100000 (constant (F := Ideal) S_ .f32 0x3F800000#32))
      (degp1K a6))
    shapeCasts_S100000_S100000x1

/-- The host's quotient of the broadcast float one by an array reads, at any index, one over the array's entry. -/
theorem hostDivf_one_apply {s : Shape} (h : (⟨0, ![]⟩ : Shape).BroadcastsInDim s ![]) (y : FVec Ideal s .f32)
    (j : s.Idx) :
    Host.divf (F := Ideal) (broadcastInDim s ![] h (constant (F := Ideal) ⟨0, ![]⟩ .f32 0x3F800000#32)) y j
      = Ideal.div 1 (y j) := by
  show Ideal.div (Ideal.ofBits .f32 0x3F800000#32) (y j) = _
  rw [Ideal.ofBits_one_f32]

/-- The reciprocal column at `(r, ·)` is one over the degree plus one at `r`. -/
theorem invK_apply (a6 : IVec S1600000 32) (r : Fin 100000) (u : Fin 1) :
    invK a6 (ValueIdx.ix2 r u) = Ideal.div 1 (degp1K a6 (ValueIdx.ix1 r)) :=
  (shapeCast_a_a1_apply (a := 100000) _ shapeCasts_S100000_S100000x1 r u).trans
    (hostDivf_one_apply bcast_S_S100000 (degp1K a6) (ValueIdx.ix1 r))

/-- The weights in the matrix unit's format (on extended reals: the weights), and the bias as a row. -/
def w1K (a1 : FVec Ideal S128x128 .f32) : FVec Ideal S128x128 .bf16 := truncf (F := Ideal) .bf16 a1 bitsLt_bf16_f32
def b1K (a2 : FVec Ideal S128 .f32) : FVec Ideal S1x128 .f32 := shapeCast S1x128 a2 shapeCasts_S128_S1x128
def w2K (a3 : FVec Ideal S128x64 .f32) : FVec Ideal S128x64 .bf16 := truncf (F := Ideal) .bf16 a3 bitsLt_bf16_f32
def b2K (a4 : FVec Ideal S64 .f32) : FVec Ideal S1x64 .f32 := shapeCast S1x64 a4 shapeCasts_S64_S1x64

/-- The first layer's output, from the argument arrays. -/
def h1K (a0 : FVec Ideal S100000x128 .f32) (a1 : FVec Ideal S128x128 .f32) (a2 : FVec Ideal S128 .f32)
    (a5 a6 : IVec S1600000 32) : FVec Ideal S100000x128 .f32 :=
  layer1 (nbK a0 a5 a6) a0 (invK a6) (w1K a1) (b1K a2)

/-- The program's result, from the argument arrays. -/
def outK (a0 : FVec Ideal S100000x128 .f32) (a1 : FVec Ideal S128x128 .f32) (a2 : FVec Ideal S128 .f32)
    (a3 : FVec Ideal S128x64 .f32) (a4 : FVec Ideal S64 .f32) (a5 a6 : IVec S1600000 32) : FVec Ideal S100000x64 .f32 :=
  layer2 (nbK (h1K a0 a1 a2 a5 a6) a5 a6) (h1K a0 a1 a2 a5 a6) (invK a6) (w2K a3) (b2K a4)

variable (m : (ℓ : Loc nD τ sig) → Buf (Elt Ideal) ℓ) (ρ : Dev nD → PrngReg)

/-! ## The first pallas_call's operand arrays -/

set_option maxHeartbeats 4000000 in
theorem V1_v20 (c : Dev nD) : V1 m ρ c main_v20 = nbK (m ((c : Thread nD τ).loc main_arg0)) (m ((c : Thread nD τ).loc main_arg5)) (m ((c : Thread nD τ).loc main_arg6)) := by
  dsimp only [V1, W1, hostOps0]
  after_results_simp <;> rfl

set_option maxHeartbeats 4000000 in
theorem V1_arg0 (c : Dev nD) : V1 m ρ c main_arg0 = (m ((c : Thread nD τ).loc main_arg0)) := by
  dsimp only [V1, W1, hostOps0]
  after_results_simp <;> rfl

set_option maxHeartbeats 4000000 in
theorem V1_v8 (c : Dev nD) : V1 m ρ c main_v8 = invK (m ((c : Thread nD τ).loc main_arg6)) := by
  dsimp only [V1, W1, hostOps0]
  after_results_simp <;> rfl

set_option maxHeartbeats 4000000 in
theorem V1_v21 (c : Dev nD) : V1 m ρ c main_v21 = w1K (m ((c : Thread nD τ).loc main_arg1)) := by
  dsimp only [V1, W1, hostOps0]
  after_results_simp <;> rfl

set_option maxHeartbeats 4000000 in
theorem V1_v22 (c : Dev nD) : V1 m ρ c main_v22 = b1K (m ((c : Thread nD τ).loc main_arg2)) := by
  dsimp only [V1, W1, hostOps0]
  after_results_simp <;> rfl

/-! ## The buffers after the first pallas_call -/

/-- The first pallas_call's output array holds the first layer of the argument arrays. -/
theorem W2_v23 (c : Dev nD) : W2 m ρ c (Proc.devRef .tc main_v23)
    = h1K (m ((c : Thread nD τ).loc main_arg0)) (m ((c : Thread nD τ).loc main_arg1)) (m ((c : Thread nD τ).loc main_arg2)) (m ((c : Thread nD τ).loc main_arg5)) (m ((c : Thread nD τ).loc main_arg6)) :=
  (W2_arr m ρ c 5).trans ((KFinal0.final (V1 m ρ) c).trans (by
    rw [V1_v20, V1_arg0, V1_v8, V1_v21, V1_v22]; rfl))

/-- The reciprocal column is an input of the first pallas_call: its array is as the region found it. -/
theorem W2_v8 (c : Dev nD) : W2 m ρ c (Proc.devRef .tc main_v8) = invK (m ((c : Thread nD τ).loc main_arg6)) :=
  (W2_arr m ρ c 2).trans (((dat0 (V1 m ρ) c).arrAt_in 2 rfl _).trans ((A_eq0 (V1 m ρ) c 2).trans (V1_v8 m ρ c)))

/-- No host operation before the first pallas_call and no window of it writes `main_arg3`. -/
theorem W2_arg3 (c : Dev nD) : W2 m ρ c (Proc.devRef .tc main_arg3) = (m ((c : Thread nD τ).loc main_arg3)) :=
  (W2_of_ne m ρ c main_arg3 (by decide)).trans
    (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- No host operation before the first pallas_call and no window of it writes `main_arg4`. -/
theorem W2_arg4 (c : Dev nD) : W2 m ρ c (Proc.devRef .tc main_arg4) = (m ((c : Thread nD τ).loc main_arg4)) :=
  (W2_of_ne m ρ c main_arg4 (by decide)).trans
    (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- No host operation before the first pallas_call and no window of it writes `main_arg5`. -/
theorem W2_arg5 (c : Dev nD) : W2 m ρ c (Proc.devRef .tc main_arg5) = (m ((c : Thread nD τ).loc main_arg5)) :=
  (W2_of_ne m ρ c main_arg5 (by decide)).trans
    (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- No host operation before the first pallas_call and no window of it writes `main_arg6`. -/
theorem W2_arg6 (c : Dev nD) : W2 m ρ c (Proc.devRef .tc main_arg6) = (m ((c : Thread nD τ).loc main_arg6)) :=
  (W2_of_ne m ρ c main_arg6 (by decide)).trans
    (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The second pallas_call's operand arrays -/

set_option maxHeartbeats 4000000 in
theorem V3_v35 (c : Dev nD) : V3 m ρ c main_v35
    = nbK (W2 m ρ c (Proc.devRef .tc main_v23)) (W2 m ρ c (Proc.devRef .tc main_arg5)) (W2 m ρ c (Proc.devRef .tc main_arg6)) := by
  dsimp only [V3, W3, hostOps1]
  after_results_simp <;> rfl

set_option maxHeartbeats 4000000 in
theorem V3_v23 (c : Dev nD) : V3 m ρ c main_v23 = W2 m ρ c (Proc.devRef .tc main_v23) := by
  dsimp only [V3, W3, hostOps1]
  after_results_simp <;> rfl

set_option maxHeartbeats 4000000 in
theorem V3_v8 (c : Dev nD) : V3 m ρ c main_v8 = W2 m ρ c (Proc.devRef .tc main_v8) := by
  dsimp only [V3, W3, hostOps1]
  after_results_simp <;> rfl

set_option maxHeartbeats 4000000 in
theorem V3_v36 (c : Dev nD) : V3 m ρ c main_v36 = w2K (W2 m ρ c (Proc.devRef .tc main_arg3)) := by
  dsimp only [V3, W3, hostOps1]
  after_results_simp <;> rfl

set_option maxHeartbeats 4000000 in
theorem V3_v37 (c : Dev nD) : V3 m ρ c main_v37 = b2K (W2 m ρ c (Proc.devRef .tc main_arg4)) := by
  dsimp only [V3, W3, hostOps1]
  after_results_simp <;> rfl

/-! ## The program's result -/

/-- The second pallas_call's output array after its pipeline is `outK` of the argument arrays. -/
theorem kfinal (c : Dev nD) : (dat1 (V3 m ρ) c).arrAt 5 cfg1.N
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (KFinal1.final (V3 m ρ) c).trans (by
    rw [V3_v35, V3_v23, V3_v8, V3_v36, V3_v37, W2_v23, W2_v8, W2_arg3, W2_arg4, W2_arg5, W2_arg6]; rfl)

end Cert.KernelIdeal.KHost

end
-- ==== Proof.RefValue.lean ====
/-
  The reference program read stage by stage, on extended reals.

  Each of its two layers computes, for node `r` and output feature `q`,
  `∑ₖ ((nb r k + h r k) / (deg r + 1)) · W k q + b q`, the first followed by a maximum with zero.  Here `nb` is the
  scatter-add over the edges' targets of the rows gathered at the edges' sources, and `deg r` the scatter-add of
  ones: zero plus a sum of ones over the edges that land on `r`.  So `deg r + 1` is not zero, dividing by it is
  multiplying by its reciprocal, and each layer is the layer function with the reciprocal column `1 / (deg + 1)`
  as its scale and the bias read as a row.
-/
import proofs.«107897_j18322330484806_2_alg».proof.Proof.Gen.ReferenceIdeal.Read
import proofs.«107897_j18322330484806_2_alg».proof.Proof.Spec
import Idealize.ShloMosaic.Lib.IdealHost

noncomputable section

namespace Cert.ReferenceIdeal.RefValue

open Cert.ReferenceIdeal Cert.ReferenceIdeal.Gen Cert.ReferenceIdeal.Read Cert.SageSpec
open Idealize.ShloMosaic Idealize.ShloMosaic.ValueIdx

/-- The degree plus one is not zero: the degree is zero plus a sum of ones. -/
theorem deg1_ne_zero (x6 : (⟨S1600000, .i32⟩ : BufTy).Contents (Elt Ideal)) (r : S100000.Idx) :
    val_main_v16 (F := Ideal) x6 r ≠ 0 := by
  rw [val_main_v16_apply, val_main_v15_apply, val_main_cst_3_apply]
  unfold val_main_v13
  exact hostScatterAdd_ones_add_one_ne_zero _ _ _ _
    (fun i => by rw [val_main_v11_apply, val_main_cst_2_apply]; exact Ideal.ofBits_zero_f32)
    (fun j => by rw [val_main_v10_apply, val_main_cst_1_apply]; exact Ideal.ofBits_one_f32) r

/-! ## The scale column and the bias rows, as the layer functions take them -/

/-- The reciprocal column: `1 / (deg r + 1)` at `(r, ·)`. -/
def invCol (x6 : (⟨S1600000, .i32⟩ : BufTy).Contents (Elt Ideal)) : S100000x1.Idx → EReal :=
  fun i => Ideal.div 1 (val_main_v16 (F := Ideal) x6 (ix1 (i 0)))

/-- A bias vector as a row. -/
def biasRow1 (x2 : (⟨S128, .f32⟩ : BufTy).Contents (Elt Ideal)) : S1x128.Idx → EReal := fun i => x2 (ix1 (i 1))
def biasRow2 (x4 : (⟨S64, .f32⟩ : BufTy).Contents (Elt Ideal)) : S1x64.Idx → EReal := fun i => x4 (ix1 (i 1))

/-! ## The index maps of the read lemmas, in coordinates -/

theorem l_idx1 (i : S100000x128.Idx) (k : Fin 128) : lidx_main_v20 i k = ix2 (i 0) k :=
  funext fun a => Fin.ext (by match a with | ⟨0, _⟩ => rfl | ⟨1, _⟩ => rfl)
theorem r_idx1 (i : S100000x128.Idx) (k : Fin 128) : ridx_main_v20 i k = ix2 k (i 1) :=
  funext fun a => Fin.ext (by match a with | ⟨0, _⟩ => rfl | ⟨1, _⟩ => rfl)
theorem b_idx1 (i : S100000x128.Idx) : idx_main_v21 (idx_main_v22 i) = ix1 (i 1) :=
  funext fun a => Fin.ext (by match a with | ⟨0, _⟩ => rfl)
theorem d_idx1 (j : S100000x128.Idx) : idx_main_v17 (idx_main_v18 j) = ix1 (j 0) :=
  funext fun a => Fin.ext (by match a with | ⟨0, _⟩ => rfl)
theorem l_idx2 (i : S100000x64.Idx) (k : Fin 128) : lidx_main_v45 i k = ix2 (i 0) k :=
  funext fun a => Fin.ext (by match a with | ⟨0, _⟩ => rfl | ⟨1, _⟩ => rfl)
theorem r_idx2 (i : S100000x64.Idx) (k : Fin 128) : ridx_main_v45 i k = ix2 k (i 1) :=
  funext fun a => Fin.ext (by match a with | ⟨0, _⟩ => rfl | ⟨1, _⟩ => rfl)
theorem b_idx2 (i : S100000x64.Idx) : idx_main_v46 (idx_main_v47 i) = ix1 (i 1) :=
  funext fun a => Fin.ext (by match a with | ⟨0, _⟩ => rfl)
theorem d_idx2 (j : S100000x128.Idx) : idx_main_v42 (idx_main_v43 j) = ix1 (j 0) :=
  funext fun a => Fin.ext (by match a with | ⟨0, _⟩ => rfl)

/-- The second layer recomputes the degree plus one: the same operations of the same argument. -/
theorem deg_again (x6 : (⟨S1600000, .i32⟩ : BufTy).Contents (Elt Ideal)) : val_main_v41 (F := Ideal) x6 = val_main_v16 (F := Ideal) x6 := rfl

/-! ## The two layers -/

/-- The first layer's output is the layer function of the aggregated features, the features, the reciprocal
    column, the weights and the bias row. -/
theorem layer1_eq (x0 : (⟨S100000x128, .f32⟩ : BufTy).Contents (Elt Ideal)) (x1 : (⟨S128x128, .f32⟩ : BufTy).Contents (Elt Ideal)) (x2 : (⟨S128, .f32⟩ : BufTy).Contents (Elt Ideal))
    (x5 x6 : (⟨S1600000, .i32⟩ : BufTy).Contents (Elt Ideal)) :
    val_main_v24 (F := Ideal) x0 x1 x2 x5 x6
      = layer1 (val_main_v9 (F := Ideal) x0 x5 x6) x0 (invCol x6) x1 (biasRow1 x2) := by
  funext i
  rw [val_main_v24_apply, val_main_v23_apply, val_main_v20_apply, val_main_v22_apply, val_main_v21_apply,
    val_main_call0_v0_apply, val_main_call0_cst_apply]
  unfold layer1 invCol biasRow1
  show max ((∑ k : Fin 128, val_main_v19 (F := Ideal) x0 x5 x6 (lidx_main_v20 i k) * x1 (ridx_main_v20 i k))
      + x2 (idx_main_v21 (idx_main_v22 i))) (Ideal.ofBits .f32 0x00000000#32) = _
  rw [Ideal.ofBits_zero_f32, b_idx1]
  refine congrArg (fun s => max (s + x2 (ix1 (i 1))) 0) (Finset.sum_congr rfl fun k _ => ?_)
  rw [val_main_v19_apply, val_main_v14_apply, val_main_v18_apply, val_main_v17_apply, d_idx1]
  show Ideal.div (val_main_v9 (F := Ideal) x0 x5 x6 (lidx_main_v20 i k) + x0 (lidx_main_v20 i k))
      (val_main_v16 (F := Ideal) x6 (ix1 (i 0))) * x1 (ridx_main_v20 i k) = _
  rw [div_eq_mul_one_div _ _ (deg1_ne_zero x6 _), l_idx1, r_idx1]
  rfl

/-- The program's result is the second layer function of the aggregated first-layer output, that output, the same
    reciprocal column, the second weights and bias row. -/
theorem layer2_eq (x0 : (⟨S100000x128, .f32⟩ : BufTy).Contents (Elt Ideal)) (x1 : (⟨S128x128, .f32⟩ : BufTy).Contents (Elt Ideal)) (x2 : (⟨S128, .f32⟩ : BufTy).Contents (Elt Ideal))
    (x3 : (⟨S128x64, .f32⟩ : BufTy).Contents (Elt Ideal)) (x4 : (⟨S64, .f32⟩ : BufTy).Contents (Elt Ideal)) (x5 x6 : (⟨S1600000, .i32⟩ : BufTy).Contents (Elt Ideal)) :
    val_main_v48 (F := Ideal) x0 x1 x2 x3 x4 x5 x6
      = layer2 (val_main_v34 (F := Ideal) x0 x1 x2 x5 x6) (val_main_v24 (F := Ideal) x0 x1 x2 x5 x6) (invCol x6) x3
          (biasRow2 x4) := by
  funext i
  rw [val_main_v48_apply, val_main_v45_apply, val_main_v47_apply, val_main_v46_apply]
  unfold layer2 invCol biasRow2
  show (∑ k : Fin 128, val_main_v44 (F := Ideal) x0 x1 x2 x5 x6 (lidx_main_v45 i k) * x3 (ridx_main_v45 i k))
      + x4 (idx_main_v46 (idx_main_v47 i)) = _
  rw [b_idx2]
  refine congrArg (fun s => s + x4 (ix1 (i 1))) (Finset.sum_congr rfl fun k _ => ?_)
  rw [val_main_v44_apply, val_main_v39_apply, val_main_v43_apply, val_main_v42_apply, d_idx2, deg_again]
  show Ideal.div (val_main_v34 (F := Ideal) x0 x1 x2 x5 x6 (lidx_main_v45 i k)
        + val_main_v24 (F := Ideal) x0 x1 x2 x5 x6 (lidx_main_v45 i k))
      (val_main_v16 (F := Ideal) x6 (ix1 (i 0))) * x3 (ridx_main_v45 i k) = _
  rw [div_eq_mul_one_div _ _ (deg1_ne_zero x6 _), l_idx2, r_idx2]
  rfl

end Cert.ReferenceIdeal.RefValue

end
-- ==== Proof.Bridge.lean ====
/-
  The two programs compute one function.

  The kernel program's host side and the reference build the same aggregated neighbour features (a gather at the
  wrapped source indices and a scatter-add over the targets — the kernel program passes the gathered operand
  through a narrower float format and back, which is the identity on extended reals) and the same degree plus one.
  The kernel program's scale is the reciprocal `1 / (deg + 1)` reshaped to a column, its bias the vector reshaped to
  a row, its weights the weights in the matrix unit's format (the weights themselves, on extended reals).  With
  these identifications the kernel program's two layers are the reference's, layer by layer: the first layer's
  outputs agree, hence so do their aggregates, hence the results.
-/
import proofs.«107897_j18322330484806_2_alg».proof.Proof.KHost
import proofs.«107897_j18322330484806_2_alg».proof.Proof.RefValue
import Idealize.ShloMosaic.Lib.ValueLayout

noncomputable section

namespace Cert.Proof.Bridge

open Idealize.ShloMosaic Idealize.ShloMosaic.ValueIdx Cert.SageSpec
open Cert.KernelIdeal.KHost Cert.ReferenceIdeal.Read Cert.ReferenceIdeal.RefValue

/-- The aggregated neighbour features: the kernel program's term is the reference's stage. -/
theorem nb1_eq (a0 : FVec Ideal Cert.ReferenceIdeal.S100000x128 .f32) (a5 a6 : IVec Cert.ReferenceIdeal.S1600000 32) :
    nbK a0 a5 a6 = val_main_v9 (F := Ideal) a0 a5 a6 := rfl

/-- The same for the aggregate of the first layer's output. -/
theorem nb2_eq (a0 : FVec Ideal Cert.ReferenceIdeal.S100000x128 .f32) (a1 : FVec Ideal Cert.ReferenceIdeal.S128x128 .f32) (a2 : FVec Ideal Cert.ReferenceIdeal.S128 .f32)
    (a5 a6 : IVec Cert.ReferenceIdeal.S1600000 32) :
    nbK (val_main_v24 (F := Ideal) a0 a1 a2 a5 a6) a5 a6 = val_main_v34 (F := Ideal) a0 a1 a2 a5 a6 := rfl

/-- The degree plus one. -/
theorem degp1_eq (a6 : IVec Cert.ReferenceIdeal.S1600000 32) : degp1K a6 = val_main_v16 (F := Ideal) a6 := rfl

/-- The reciprocal column: the reshape of `1 / (deg + 1)` reads, at `(r, ·)`, one over the degree plus one at `r`. -/
theorem inv_eq (a6 : IVec Cert.ReferenceIdeal.S1600000 32) : invK a6 = invCol a6 := by
  funext i
  exact (congrArg (invK a6) (eq_ix2 i)).trans ((invK_apply a6 (i 0) (i 1)).trans (by rw [degp1_eq]; rfl))

/-- The bias rows. -/
theorem b1_eq (a2 : FVec Ideal Cert.ReferenceIdeal.S128 .f32) : b1K a2 = biasRow1 a2 := by
  funext i
  exact (congrArg (b1K a2) (eq_ix2 i)).trans
    (shapeCast_a_1a_apply (a := 128) a2 Cert.KernelIdeal.Gen.shapeCasts_S128_S1x128 (i 0) (i 1))

theorem b2_eq (a4 : FVec Ideal Cert.ReferenceIdeal.S64 .f32) : b2K a4 = biasRow2 a4 := by
  funext i
  exact (congrArg (b2K a4) (eq_ix2 i)).trans
    (shapeCast_a_1a_apply (a := 64) a4 Cert.KernelIdeal.Gen.shapeCasts_S64_S1x64 (i 0) (i 1))

/-- The first layer's outputs agree. -/
theorem h1_eq (a0 : FVec Ideal Cert.ReferenceIdeal.S100000x128 .f32) (a1 : FVec Ideal Cert.ReferenceIdeal.S128x128 .f32) (a2 : FVec Ideal Cert.ReferenceIdeal.S128 .f32)
    (a5 a6 : IVec Cert.ReferenceIdeal.S1600000 32) :
    h1K a0 a1 a2 a5 a6 = val_main_v24 (F := Ideal) a0 a1 a2 a5 a6 := by
  unfold h1K
  rw [layer1_eq, nb1_eq, inv_eq, b1_eq]
  rfl

/-- The results agree. -/
theorem out_eq (a0 : FVec Ideal Cert.ReferenceIdeal.S100000x128 .f32) (a1 : FVec Ideal Cert.ReferenceIdeal.S128x128 .f32) (a2 : FVec Ideal Cert.ReferenceIdeal.S128 .f32)
    (a3 : FVec Ideal Cert.ReferenceIdeal.S128x64 .f32) (a4 : FVec Ideal Cert.ReferenceIdeal.S64 .f32) (a5 a6 : IVec Cert.ReferenceIdeal.S1600000 32) :
    outK a0 a1 a2 a3 a4 a5 a6 = val_main_v48 (F := Ideal) a0 a1 a2 a3 a4 a5 a6 := by
  unfold outK
  rw [h1_eq, nb2_eq, inv_eq, b2_eq, layer2_eq]
  rfl

end Cert.Proof.Bridge

end
-- ==== Proof.lean ====
/-
  The certificate: a two-layer mean-style graph convolution as two fused pallas_calls with host-side gather and
  scatter-add, against its plain reference, on extended reals.

  Frames.  The two kernel programs' frames are their generated frame certificates; the reference has no kernel
  and its frame is its run with the result dropped.  The idealization rewrote nothing, so `preserves` is trivial.

  Values.  The kernel program's result buffer ends at the second pallas_call's output array, which is the second
  layer function of the arrays that region was entered with; those are host-side functions of the first
  pallas_call's output array, the first layer function of its operand arrays, and of the arguments
  (Proof/KRun, Proof/KBody, Proof/KFinal0, Proof/KFinal1, Proof/KHost).  The reference's result is the same
  composition with the row DIVIDED by `degree + 1` where the kernel program MULTIPLIES by `1 / (degree + 1)`; the
  two agree because `degree + 1` is one plus a sum of ones, never zero (Proof/Spec, Proof/RefValue, Proof/Bridge).
  The precondition (finite float inputs) is not used: the law holds for every extended-real numerator.
-/
import proofs.«107897_j18322330484806_2_alg».proof.Defs
import proofs.«107897_j18322330484806_2_alg».proof.Proof.Gen.Kernel
import proofs.«107897_j18322330484806_2_alg».proof.Proof.Gen.Kernel.Frame
import proofs.«107897_j18322330484806_2_alg».proof.Proof.Gen.KernelIdeal
import proofs.«107897_j18322330484806_2_alg».proof.Proof.Gen.KernelIdeal.Frame
import proofs.«107897_j18322330484806_2_alg».proof.Proof.Gen.ReferenceIdeal
import proofs.«107897_j18322330484806_2_alg».proof.Proof.Gen.ReferenceIdeal.Run
import proofs.«107897_j18322330484806_2_alg».proof.Proof.Gen.ReferenceIdeal.Read
import proofs.«107897_j18322330484806_2_alg».proof.Proof.Gen.Pre_finite_inputs
import proofs.«107897_j18322330484806_2_alg».proof.Proof.KRun
import proofs.«107897_j18322330484806_2_alg».proof.Proof.KHost
import proofs.«107897_j18322330484806_2_alg».proof.Proof.Bridge
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs, run from memories agreeing on the arguments, end with the same result: the kernel
    program's at `outK` of its arguments, the reference's at its last stage of the same arguments, one function. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KHost.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KHost.kfinal m ρ c), (h c).2⟩) (Cert.KernelIdeal.KRun.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v48_eq, (hagree c).1, (hagree c).2.1, (hagree c).2.2.1, (hagree c).2.2.2.1,
      (hagree c).2.2.2.2.1, (hagree c).2.2.2.2.2.1, (hagree c).2.2.2.2.2.2]
    exact (Bridge.out_eq _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
